-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S0 : Shape := ⟨1, ![0]⟩
abbrev S256x256 : Shape := ⟨2, ![256, 256]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S0 : S_.BroadcastsInDim S0 (![] : Fin 0 → Fin S0.rank)
  reducesTo_S0_S_d0 : S0.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_arg8 : FVec F S256x256 .f32) (main_arg9 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x1024x256 .f32) (main_arg1 : FVec F S0 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S0 .f32 := Host.absf main_arg1
  let main_cst_0 : FVec F S_ .f32 := constant S_ .f32 0x7F800000#32
  let main_v5 : FVec F S0 .f32 := broadcastInDim S0 ![] bcast_S_S0 main_cst_0
  let main_v6 : IVec S0 1 := cmpf .olt main_v4 main_v5
  let main_c_1 : IVec S_ 1 := constantI S_ 1 1#1
  let main_v7 : IVec S_ 1 := (fun x v => Host.reduce IntOp.andi x v reducesTo_S0_S_d0 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S32x1024x256 : Shape := ⟨3, ![32, 1024, 256]⟩
abbrev S0 : Shape := ⟨1, ![0]⟩
abbrev S256x256 : Shape := ⟨2, ![256, 256]⟩
abbrev S256 : Shape := ⟨1, ![256]⟩
abbrev S32x1024x1024 : Shape := ⟨3, ![32, 1024, 1024]⟩
abbrev S1x1024x256 : Shape := ⟨3, ![1, 1024, 256]⟩
abbrev S1x1024x1024 : Shape := ⟨3, ![1, 1024, 1024]⟩
abbrev S1024x256 : Shape := ⟨2, ![1024, 256]⟩
abbrev S1x256 : Shape := ⟨2, ![1, 256]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 12
  | .vmem => 14
  | .smem => 0
  | _ => 0

abbrev bufTy : (tb : Table) → Fin (tcTables nBuf tb) → BufTy
  | .hbm, ⟨0, _⟩ => ⟨S32x1024x256, .f32⟩
  | .hbm, ⟨1, _⟩ => ⟨S0, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S32x1024x1024, .f32⟩
  | .hbm, ⟨11, _⟩ => ⟨S32x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x256, .f32⟩
  | .local _ .vmem, ⟨13, _⟩ => ⟨S1x1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  iota_S1024x1_d0_w32 : S1024x1.Iotas .tc 32 [0]
  iota_S1x1024_d1_w32 : S1x1024.Iotas .tc 32 [1]
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  transposes_S1024x1_p1_0_S1x1024 : S1024x1.Transposes [1, 0] S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x1024.size a ≤ S32x1024x1024.size a
  hwx0_9 : ∀ i : grid0.Coords, EltTy.bits .f32 = 32 ∨ (Rect.block (s := S32x1024x1024) S1x1024x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1024x256.size a ≤ S32x1024x256.size a
  hwx0_10 : ∀ i : grid0.Coords, EltTy.bits .f32 = 32 ∨ (Rect.block (s := S32x1024x256) S1x1024x256.size (cc0_transform_10 i) (hinb0_10 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_0) S1x1024x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_1) S1x1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S0 : Shape := ⟨1, ![0]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S32x1024x1024 : Shape := ⟨3, ![32, 1024, 1024]⟩
abbrev S1024x1024 : Shape := ⟨2, ![1024, 1024]⟩
abbrev S1x1024x1024 : Shape := ⟨3, ![1, 1024, 1024]⟩
abbrev S32x1024 : Shape := ⟨2, ![32, 1024]⟩
abbrev S32x1024x1 : Shape := ⟨3, ![32, 1024, 1]⟩
abbrev S32x1x1024 : Shape := ⟨3, ![32, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S0, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S32x1024x256, .f32⟩
  | .hbm, ⟨11, _⟩ => ⟨S1x1x256, .f32⟩
  | .hbm, ⟨12, _⟩ => ⟨S32x1024x256, .f32⟩
  | .hbm, ⟨13, _⟩ => ⟨S32x1024x256, .f32⟩
  | .hbm, ⟨14, _⟩ => ⟨S_, .f32⟩
  | .hbm, ⟨15, _⟩ => ⟨S32x1024x256, .f32⟩
  | .hbm, ⟨16, _⟩ => ⟨S32x1024x256, .f32⟩
  | .hbm, ⟨17, _⟩ => ⟨S32x1024x256, .f32⟩
  | .hbm, ⟨18, _⟩ => ⟨S1x1x256, .f32⟩
  | .hbm, ⟨19, _⟩ => ⟨S32x1024x256, .f32⟩
  | .hbm, ⟨20, _⟩ => ⟨S32x1024x256, .f32⟩
  | .hbm, ⟨21, _⟩ => ⟨S_, .f32⟩
  | .hbm, ⟨22, _⟩ => ⟨S32x1024x256, .f32⟩
  | .hbm, ⟨23, _⟩ => ⟨S32x1024x256, .f32⟩
  | .hbm, ⟨24, _⟩ => ⟨S32x1024x1024, .f32⟩
  | .hbm, ⟨25, _⟩ => ⟨S1024x1024, .i32⟩
  | .hbm, ⟨26, _⟩ => ⟨S1024x1024, .i32⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S1024x1024, .i1⟩
  | .hbm, ⟨31, _⟩ => ⟨S1024x1024, .f32⟩
  | .hbm, ⟨32, _⟩ => ⟨S1x1024x1024, .f32⟩
  | .hbm, ⟨33, _⟩ => ⟨S32x1024x1024, .f32⟩
  | .hbm, ⟨34, _⟩ => ⟨S32x1024x1024, .f32⟩
  | .hbm, ⟨35, _⟩ => ⟨S_, .f32⟩
  | .hbm, ⟨36, _⟩ => ⟨S32x1024, .f32⟩
  | .hbm, ⟨37, _⟩ => ⟨S_, .f32⟩
  | .hbm, ⟨38, _⟩ => ⟨S32x1024, .f32⟩
  | .hbm, ⟨39, _⟩ => ⟨S32x1024, .f32⟩
  | .hbm, ⟨40, _⟩ => ⟨S32x1024x1, .f32⟩
  | .hbm, ⟨41, _⟩ => ⟨S32x1024x1024, .f32⟩
  | .hbm, ⟨42, _⟩ => ⟨S32x1024x1024, .f32⟩
  | .hbm, ⟨43, _⟩ => ⟨S32x1x1024, .f32⟩
  | .hbm, ⟨44, _⟩ => ⟨S32x1024x1024, .f32⟩
  | .hbm, ⟨45, _⟩ => ⟨S32x1024x1024, .f32⟩
  | .hbm, ⟨46, _⟩ => ⟨S32x1024x256, .f32⟩
  | .hbm, ⟨47, _⟩ => ⟨S32x1024x256, .f32⟩
  | .hbm, ⟨48, _⟩ => ⟨S1x1x256, .f32⟩
  | .hbm, ⟨49, _⟩ => ⟨S32x1024x256, .f32⟩
  | .hbm, ⟨50, _⟩ => ⟨S32x1024x256, .f32⟩
  | .hbm, ⟨51, _⟩ => ⟨S_, .f32⟩
  | .hbm, ⟨52, _⟩ => ⟨S32x1024x256, .f32⟩
  | .hbm, ⟨53, _⟩ => ⟨S32x1024x256, .f32⟩
  | .hbm, ⟨54, _⟩ => ⟨S32x1024x256, .f32⟩
  | .hbm, ⟨55, _⟩ => ⟨S32x1024x256, .f32⟩
  | .hbm, ⟨56, _⟩ => ⟨S1x1x256, .f32⟩
  | .hbm, ⟨57, _⟩ => ⟨S32x1024x256, .f32⟩
  | .hbm, ⟨58, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_cst_0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call2_cst : Ref sig .tc := ⟨.hbm, 51, rfl⟩
abbrev main_call2_v0 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  bcast_S_S32x1024x256 : S_.BroadcastsInDim S32x1024x256 (![] : Fin 0 → Fin S32x1024x256.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  dot_S32x1024x256_S256x256_S32x1024x256_2_0_01_1_n_n_wf : DotDims.WF S32x1024x256 S256x256 S32x1024x256 [2] [0] [0, 1] [1] [] []
  dot_S32x1024x256_S32x1024x256_S32x1024x1024_2_2_1_1_0_0_wf : DotDims.WF S32x1024x256 S32x1024x256 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x256_S256x256_S32x1024x256_2_0_01_1_n_n : DotDims S32x1024x256 S256x256 S32x1024x256 where
  lhsContracting := [2]
  rhsContracting := [0]
  lhsNonContracting := [0, 1]
  rhsNonContracting := [1]
  lhsBatch := []
  rhsBatch := []
  wf := dot_S32x1024x256_S256x256_S32x1024x256_2_0_01_1_n_n_wf
def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.LibSymNorm.lean ====
/-
  The symmetric normalisation of a graph's edge weights with self-loops, D^(-1/2) (A + I) D^(-1/2), spelt two ways
  over the extended reals, for a weight matrix A with nonnegative entries.

  Spelling one adds the identity to A, takes row sums d, raises d to the power -1/2, and multiplies
  d_k^(-1/2) · (A + I)_{kl} · d_l^(-1/2). Spelling two never forms A + I: the row degree is (row sum of A) + 1, the
  scale is the reciprocal square root of the degree, and the entry is A_{kl} · (s_k s_l), plus s_k s_l on the diagonal.

  The two agree because every entry of A is nonnegative (possibly +∞): the degree is then at least one, where the
  reciprocal square root and the power -1/2 are one function (a positive real's (√r)⁻¹, and 0 at +∞), the scales are
  nonnegative, and multiplication distributes over a sum of nonnegative extended reals.
-/
import Idealize.ShloMosaic.PureOps.Ideal

noncomputable section

open scoped BigOperators

namespace Idealize.ShloMosaic.SymNorm

open Idealize.ShloMosaic

variable {n : ℕ}

/-- The identity matrix's entry. -/
def eye (k l : Fin n) : EReal := if k = l then 1 else 0

/-- The exponent -1/2 as an extended real. -/
abbrev negHalf : EReal := ((-(1 / 2) : ℝ) : EReal)

/-- Row degree with the self-loop counted after the row sum: (∑_l A_{kl}) + 1. -/
def degAfter (A : Fin n → Fin n → EReal) (k : Fin n) : EReal := (∑ l, A k l) + 1

/-- Row degree of A + I: ∑_l (A_{kl} + I_{kl}). -/
def degLoop (A : Fin n → Fin n → EReal) (k : Fin n) : EReal := ∑ l, (A k l + eye k l)

/-- The normalised entry, the identity never formed: A_{kl} (s_k s_l), plus s_k s_l on the diagonal, s the reciprocal
    square root of the degree. -/
def normAfter (A : Fin n → Fin n → EReal) (k l : Fin n) : EReal :=
  if k = l then
    A k l * (Ideal.rsqrt (degAfter A k) * Ideal.rsqrt (degAfter A l)) + Ideal.rsqrt (degAfter A k) * Ideal.rsqrt (degAfter A l)
  else A k l * (Ideal.rsqrt (degAfter A k) * Ideal.rsqrt (degAfter A l))

/-- The normalised entry through A + I: d_k^(-1/2) (A + I)_{kl} d_l^(-1/2). -/
def normLoop (A : Fin n → Fin n → EReal) (k l : Fin n) : EReal :=
  Ideal.pow (degLoop A k) negHalf * (A k l + eye k l) * Ideal.pow (degLoop A l) negHalf

/-- A row of the identity sums to one, so the two degrees are one number (no finiteness needed: sums commute). -/
theorem degLoop_eq_degAfter (A : Fin n → Fin n → EReal) (k : Fin n) : degLoop A k = degAfter A k := by
  unfold degLoop degAfter eye
  rw [Finset.sum_add_distrib, Finset.sum_ite_eq Finset.univ k (fun _ => (1 : EReal)), if_pos (Finset.mem_univ k)]

/-- With nonnegative weights every degree is at least one. -/
theorem one_le_degAfter (A : Fin n → Fin n → EReal) (hA : ∀ k l, 0 ≤ A k l) (k : Fin n) : 1 ≤ degAfter A k := by
  unfold degAfter
  exact le_add_of_nonneg_left (Finset.sum_nonneg fun l _ => hA k l)

/-- At and above one the reciprocal square root is the power -1/2: (√r)⁻¹ = r^(-1/2) for a real r ≥ 1, and both are 0 at +∞. -/
theorem rsqrt_eq_pow_negHalf {x : EReal} (hx : 1 ≤ x) : Ideal.rsqrt x = Ideal.pow x negHalf := by
  induction x using EReal.rec with
  | bot => exact absurd hx (not_le.mpr (EReal.bot_lt_zero.trans zero_lt_one))
  | top =>
    have h1 : ¬ (0 : EReal) < negHalf := not_lt.mpr (EReal.coe_nonpos.mpr (by norm_num))
    have h2 : negHalf ≠ 0 := by
      intro h
      have : (-(1 / 2) : ℝ) = 0 := EReal.coe_eq_zero.mp h
      norm_num at this
    rw [Ideal.rsqrt_top, Ideal.pow_top, if_neg h1, if_neg h2]
  | coe r =>
    have hr : (1 : ℝ) ≤ r := by exact_mod_cast hx
    have hr0 : 0 < r := lt_of_lt_of_le one_pos hr
    rw [Ideal.rsqrt_coe, Ideal.pow_coe_coe, if_neg (not_lt.mpr hr0.le), if_neg hr0.ne']
    congr 1
    show (Real.sqrt r)⁻¹ = r ^ (-(1 / 2) : ℝ)
    rw [Real.sqrt_eq_rpow, Real.rpow_neg hr0.le]

/-- At and above one the reciprocal square root is nonnegative. -/
theorem rsqrt_nonneg {x : EReal} (hx : 1 ≤ x) : 0 ≤ Ideal.rsqrt x := by
  induction x using EReal.rec with
  | bot => exact absurd hx (not_le.mpr (EReal.bot_lt_zero.trans zero_lt_one))
  | top => rw [Ideal.rsqrt_top]
  | coe r =>
    have hr : (1 : ℝ) ≤ r := by exact_mod_cast hx
    have hr0 : 0 < r := lt_of_lt_of_le one_pos hr
    rw [Ideal.rsqrt_coe, if_neg (not_lt.mpr hr0.le), if_neg hr0.ne']
    exact EReal.coe_nonneg.mpr (inv_nonneg.mpr (Real.sqrt_nonneg r))

/-- **The two spellings agree on nonnegative weights.** Off the diagonal only commutativity and associativity of the
    product are used; on it, distributivity over the nonnegative sum A_{kk} + 1. -/
theorem normAfter_eq_normLoop (A : Fin n → Fin n → EReal) (hA : ∀ k l, 0 ≤ A k l) (k l : Fin n) :
    normAfter A k l = normLoop A k l := by
  unfold normAfter normLoop
  rw [degLoop_eq_degAfter, degLoop_eq_degAfter, ← rsqrt_eq_pow_negHalf (one_le_degAfter A hA k),
    ← rsqrt_eq_pow_negHalf (one_le_degAfter A hA l)]
  have hk := rsqrt_nonneg (one_le_degAfter A hA k)
  have hl := rsqrt_nonneg (one_le_degAfter A hA l)
  generalize Ideal.rsqrt (degAfter A k) = s at hk
  generalize Ideal.rsqrt (degAfter A l) = t at hl
  have ha := hA k l
  generalize A k l = a at ha
  unfold eye
  by_cases h : k = l
  · rw [if_pos h, if_pos h, EReal.left_distrib_of_nonneg ha zero_le_one,
      EReal.right_distrib_of_nonneg (EReal.mul_nonneg hk ha) (EReal.mul_nonneg hk zero_le_one), mul_one,
      mul_comm s a, mul_assoc]
  · rw [if_neg h, if_neg h, add_zero, mul_comm s a, mul_assoc]

end Idealize.ShloMosaic.SymNorm

end
-- ==== Proof.GraphSpec.lean ====
/-
  The graph module's mathematics on the extended reals: what both programs compute, written once.

  One graph has n nodes with d features each (a matrix X). Its edge weights are learned: two dense layers with bias and
  ReLU give node embeddings H, and the weight of edge (k, l) is the inner product of rows k and l of H — the Gram matrix
  H Hᵀ. Because H comes out of a ReLU, every edge weight is nonnegative. The weights are normalised symmetrically with
  self-loops (the two spellings of Proof/LibSymNorm.lean), and a two-layer graph convolution with the normalised adjacency
  gives the output features: adj (relu (adj (X G₁) + g₁) G₂) + g₂.

  The arrays hold 32 such graphs of 1024 nodes and 256 features, all graphs sharing the weights.
-/
import proofs.«121697_j44092134261105_2_alg».proof.Proof.LibSymNorm
import Idealize.ShloMosaic.Lib.ValueIdx

noncomputable section

open scoped BigOperators

namespace Cert.GraphSpec

open Idealize.ShloMosaic Idealize.ShloMosaic.ValueIdx Idealize.ShloMosaic.SymNorm

/-! ## One graph -/

section OneGraph
variable {n d : ℕ}

/-- A dense layer with bias and ReLU: max(∑_c H_{kc} W_{cj} + b_j, 0). -/
def dense (H : Fin n → Fin d → EReal) (W : Fin d → Fin d → EReal) (b : Fin d → EReal) (k : Fin n) (j : Fin d) : EReal :=
  max ((∑ c, H k c * W c j) + b j) 0

/-- A ReLU's output is nonnegative. -/
theorem dense_nonneg (H : Fin n → Fin d → EReal) (W : Fin d → Fin d → EReal) (b : Fin d → EReal) (k : Fin n) (j : Fin d) :
    0 ≤ dense H W b k j := le_max_right _ _

/-- The Gram matrix H Hᵀ: entry (k, l) is the inner product of rows k and l. -/
def gram (H : Fin n → Fin d → EReal) (k l : Fin n) : EReal := ∑ c, H k c * H l c

/-- Inner products of nonnegative rows are nonnegative (possibly +∞). -/
theorem gram_nonneg (H : Fin n → Fin d → EReal) (hH : ∀ k c, 0 ≤ H k c) (k l : Fin n) : 0 ≤ gram H k l :=
  Finset.sum_nonneg fun c _ => EReal.mul_nonneg (hH k c) (hH l c)

/-- One graph convolution's product adj (H W): node k gathers its neighbours' transformed features. -/
def propagate (adj : Fin n → Fin n → EReal) (H : Fin n → Fin d → EReal) (W : Fin d → Fin d → EReal) (k : Fin n) (j : Fin d) :
    EReal := ∑ l, adj k l * (∑ c, H l c * W c j)

/-- The two-layer graph convolution: adj (relu (adj (X G₁) + g₁) G₂) + g₂. -/
def gcn (adj : Fin n → Fin n → EReal) (X : Fin n → Fin d → EReal) (G₁ : Fin d → Fin d → EReal) (g₁ : Fin d → EReal)
    (G₂ : Fin d → Fin d → EReal) (g₂ : Fin d → EReal) (k : Fin n) (j : Fin d) : EReal :=
  propagate adj (fun k' j' => max (propagate adj X G₁ k' j' + g₁ j') 0) G₂ k j + g₂ j

end OneGraph

/-! ## The arrays: 32 graphs of 1024 nodes and 256 features -/

/-- Node features of all graphs. -/
abbrev SX : Shape := ⟨3, ![32, 1024, 256]⟩
/-- A weight matrix. -/
abbrev SW : Shape := ⟨2, ![256, 256]⟩
/-- A bias vector. -/
abbrev SB : Shape := ⟨1, ![256]⟩
/-- Adjacency matrices of all graphs. -/
abbrev SA : Shape := ⟨3, ![32, 1024, 1024]⟩

/-- Graph g's node features as a matrix. -/
def nodes (x : SX.Idx → EReal) (g : Fin 32) : Fin 1024 → Fin 256 → EReal := fun k c => x (ix3 g k c)
/-- A weight array as a matrix. -/
def mat (W : SW.Idx → EReal) : Fin 256 → Fin 256 → EReal := fun c j => W (ix2 c j)
/-- A bias array as a vector. -/
def vec (b : SB.Idx → EReal) : Fin 256 → EReal := fun j => b (ix1 j)

/-- Graph g's learned edge weights: the Gram matrix of its embeddings after the two dense layers. -/
def edges (x : SX.Idx → EReal) (W₁ : SW.Idx → EReal) (b₁ : SB.Idx → EReal) (W₂ : SW.Idx → EReal) (b₂ : SB.Idx → EReal)
    (g : Fin 32) : Fin 1024 → Fin 1024 → EReal :=
  gram (dense (dense (nodes x g) (mat W₁) (vec b₁)) (mat W₂) (vec b₂))

/-- Learned edge weights are nonnegative, whatever the inputs: they are inner products of ReLU outputs. -/
theorem edges_nonneg (x : SX.Idx → EReal) (W₁ : SW.Idx → EReal) (b₁ : SB.Idx → EReal) (W₂ : SW.Idx → EReal)
    (b₂ : SB.Idx → EReal) (g : Fin 32) (k l : Fin 1024) : 0 ≤ edges x W₁ b₁ W₂ b₂ g k l :=
  gram_nonneg _ (fun k' c => dense_nonneg _ _ _ k' c) k l

/-- All graphs' normalised adjacency, the identity never formed. -/
def adjAfter (x : SX.Idx → EReal) (W₁ : SW.Idx → EReal) (b₁ : SB.Idx → EReal) (W₂ : SW.Idx → EReal) (b₂ : SB.Idx → EReal) :
    SA.Idx → EReal := fun i => normAfter (edges x W₁ b₁ W₂ b₂ (i 0)) (i 1) (i 2)

/-- All graphs' normalised adjacency through A + I and the power -1/2. -/
def adjLoop (x : SX.Idx → EReal) (W₁ : SW.Idx → EReal) (b₁ : SB.Idx → EReal) (W₂ : SW.Idx → EReal) (b₂ : SB.Idx → EReal) :
    SA.Idx → EReal := fun i => normLoop (edges x W₁ b₁ W₂ b₂ (i 0)) (i 1) (i 2)

theorem adjAfter_ix3 (x : SX.Idx → EReal) (W₁ : SW.Idx → EReal) (b₁ : SB.Idx → EReal) (W₂ : SW.Idx → EReal)
    (b₂ : SB.Idx → EReal) (g : Fin 32) (k l : Fin 1024) :
    adjAfter x W₁ b₁ W₂ b₂ (ix3 g k l) = normAfter (edges x W₁ b₁ W₂ b₂ g) k l := rfl

theorem adjLoop_ix3 (x : SX.Idx → EReal) (W₁ : SW.Idx → EReal) (b₁ : SB.Idx → EReal) (W₂ : SW.Idx → EReal)
    (b₂ : SB.Idx → EReal) (g : Fin 32) (k l : Fin 1024) :
    adjLoop x W₁ b₁ W₂ b₂ (ix3 g k l) = normLoop (edges x W₁ b₁ W₂ b₂ g) k l := rfl

/-- The two spellings of the adjacency are one array, for any inputs at all. -/
theorem adjAfter_eq_adjLoop (x : SX.Idx → EReal) (W₁ : SW.Idx → EReal) (b₁ : SB.Idx → EReal) (W₂ : SW.Idx → EReal)
    (b₂ : SB.Idx → EReal) : adjAfter x W₁ b₁ W₂ b₂ = adjLoop x W₁ b₁ W₂ b₂ :=
  funext fun i => normAfter_eq_normLoop _ (edges_nonneg x W₁ b₁ W₂ b₂ (i 0)) (i 1) (i 2)

/-- All graphs' output features from an adjacency array: graph (i 0)'s two-layer convolution at node (i 1), feature (i 2). -/
def feats (adj : SA.Idx → EReal) (x : SX.Idx → EReal) (G₁ : SW.Idx → EReal) (g₁ : SB.Idx → EReal) (G₂ : SW.Idx → EReal)
    (g₂ : SB.Idx → EReal) : SX.Idx → EReal := fun i =>
  gcn (fun k l => adj (ix3 (i 0) k l)) (nodes x (i 0)) (mat G₁) (vec g₁) (mat G₂) (vec g₂) (i 1) (i 2)

theorem feats_ix3 (adj : SA.Idx → EReal) (x : SX.Idx → EReal) (G₁ : SW.Idx → EReal) (g₁ : SB.Idx → EReal)
    (G₂ : SW.Idx → EReal) (g₂ : SB.Idx → EReal) (g : Fin 32) (k : Fin 1024) (j : Fin 256) :
    feats adj x G₁ g₁ G₂ g₂ (ix3 g k j)
      = gcn (fun k' l => adj (ix3 g k' l)) (nodes x g) (mat G₁) (vec g₁) (mat G₂) (vec g₂) k j := rfl

end Cert.GraphSpec

end
-- ==== Proof.LibDiagMask.lean ====
/-
  The diagonal of an n × n matrix, as a program tests for it: row and column numbers k and l are written as 32-bit words
  and compared for equality. Below 2^32 a number is its word, so for n ≤ 2^32 the comparison answers "k = l". A select
  on the answer is the `if` on k = l, and the answer converted to a float is the identity matrix's entry.
-/
import Idealize.ShloMosaic.PureOps.Ideal

noncomputable section

namespace Idealize.ShloMosaic.DiagMask

open Idealize.ShloMosaic

variable {n : ℕ}

/-- Two numbers below 2^32 have the same 32-bit word exactly when they are equal. -/
theorem ofNat_eq_iff (hn : n ≤ 4294967296) (k l : Fin n) : BitVec.ofNat 32 k.val = BitVec.ofNat 32 l.val ↔ k = l := by
  constructor
  · intro e
    have h := congrArg BitVec.toNat e
    rw [BitVec.toNat_ofNat, BitVec.toNat_ofNat] at h
    have hk := k.isLt
    have hl := l.isLt
    exact Fin.ext (by omega)
  · rintro rfl; rfl

/-- The equality comparison of the two numbers' words is the one-bit word of "k = l". -/
theorem cmpi_eq (hn : n ≤ 4294967296) (k l : Fin n) :
    IntOp.cmpi .eq (BitVec.ofNat 32 k.val) (BitVec.ofNat 32 l.val) = if k = l then 1#1 else 0#1 := by
  show BitVec.ofBool (BitVec.ofNat 32 k.val == BitVec.ofNat 32 l.val) = _
  by_cases h : k = l
  · subst h; rw [beq_self_eq_true, if_pos rfl]; rfl
  · rw [beq_eq_false_iff_ne.mpr (fun e => h ((ofNat_eq_iff hn k l).mp e)), if_neg h]; rfl

/-- A select on that comparison is the `if` on k = l. -/
theorem select_diag {α : Type} (hn : n ≤ 4294967296) (k l : Fin n) (a b : α) :
    Scalar.select (IntOp.cmpi .eq (BitVec.ofNat 32 k.val) (BitVec.ofNat 32 l.val)) a b = if k = l then a else b := by
  rw [cmpi_eq hn]
  unfold Scalar.select
  by_cases h : k = l
  · rw [if_pos h, if_pos h]; exact if_pos (by decide)
  · rw [if_neg h, if_neg h]; exact if_neg (by decide)

/-- That comparison as an extended real: 1 on the diagonal, 0 off it. -/
theorem uitofp_diag (hn : n ≤ 4294967296) (k l : Fin n) :
    FloatOps.uitofp (F := Ideal) .f32 (IntOp.cmpi .eq (BitVec.ofNat 32 k.val) (BitVec.ofNat 32 l.val))
      = if k = l then (1 : EReal) else 0 := by
  rw [cmpi_eq hn]
  show (((if k = l then 1#1 else 0#1 : BitVec 1).toNat : ℝ) : EReal) = _
  by_cases h : k = l
  · rw [if_pos h, if_pos h]; norm_num
  · rw [if_neg h, if_neg h]; norm_num

end Idealize.ShloMosaic.DiagMask

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.LibGramMatmul.lean ====
/-
  The matrix product against a transposed right operand on the extended reals, read at one entry.

  A matrix unit's product of an `m × k` array by an `n × k` array contracted on the LAST axis of both (rows against
  rows: `A Bᵀ`; with `B = A` the Gram matrix of A's rows), accumulated into the zero array, holds at entry `(a, b)` the
  sum over the contracted position `c` of `A[a,c] · B[b,c]`. The contraction's index set has one axis; it is re-indexed
  by its one coordinate, and the operands' indices at output entry `(a, b)` and contraction position `c` are named by
  their coordinates, axis by axis: each operand's row reads its own output coordinate, each operand's column reads `c`.
-/
import Idealize.ShloMosaic.PureOps.Ideal.Laws
import Idealize.ShloMosaic.Lib.ValueIdx

noncomputable section

open scoped BigOperators

namespace Idealize.ShloMosaic.GramMatmul

open Idealize.ShloMosaic Idealize.ShloMosaic.ValueIdx

variable {m k n : Nat}

/-- The left operand's row coordinate is the output's row coordinate. -/
theorem lhs_row (i : (⟨2, ![m, n]⟩ : Shape).Idx) (q : (DotDims.transposedRhs m k n).contr.Idx) :
    ((DotDims.transposedRhs m k n).lhsIdx i q 0).val = (i 0).val := by
  unfold DotDims.lhsIdx
  rw [dif_neg (show ¬(0 : Fin (⟨2, ![m, k]⟩ : Shape).rank) ∈ (DotDims.transposedRhs m k n).lhsBatch from List.not_mem_nil),
    dif_pos (show (0 : Fin (⟨2, ![m, k]⟩ : Shape).rank) ∈ (DotDims.transposedRhs m k n).lhsNonContracting from List.mem_singleton.mpr rfl)]
  rfl

/-- The left operand's column coordinate is the contraction position. -/
theorem lhs_col (i : (⟨2, ![m, n]⟩ : Shape).Idx) (q : (DotDims.transposedRhs m k n).contr.Idx) :
    ((DotDims.transposedRhs m k n).lhsIdx i q 1).val = (q ⟨0, (Nat.one_pos : 0 < 1)⟩).val :=
  (DotDims.transposedRhs m k n).lhsIdx_val_of_single rfl i q

/-- The right operand's row coordinate is the output's column coordinate. -/
theorem rhs_row (i : (⟨2, ![m, n]⟩ : Shape).Idx) (q : (DotDims.transposedRhs m k n).contr.Idx) :
    ((DotDims.transposedRhs m k n).rhsIdx i q 0).val = (i 1).val := by
  unfold DotDims.rhsIdx
  rw [dif_neg (show ¬(0 : Fin (⟨2, ![n, k]⟩ : Shape).rank) ∈ (DotDims.transposedRhs m k n).rhsBatch from List.not_mem_nil),
    dif_pos (show (0 : Fin (⟨2, ![n, k]⟩ : Shape).rank) ∈ (DotDims.transposedRhs m k n).rhsNonContracting from List.mem_singleton.mpr rfl)]
  rfl

/-- The right operand's column coordinate is the contraction position. -/
theorem rhs_col (i : (⟨2, ![m, n]⟩ : Shape).Idx) (q : (DotDims.transposedRhs m k n).contr.Idx) :
    ((DotDims.transposedRhs m k n).rhsIdx i q 1).val = (q ⟨0, (Nat.one_pos : 0 < 1)⟩).val :=
  (DotDims.transposedRhs m k n).rhsIdx_val_of_single rfl i q

/-- **The product against the transposed right operand, into the zero accumulator, at an entry**:
    `∑ c, A[a,c] · B[b,c]`, at the ideal values, whatever the operands' formats and the precision key. -/
theorem matmul_zero_apply {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c :=
    funext fun ax => Fin.ext (by
      match ax with
      | ⟨0, _⟩ => exact lhs_row _ _
      | ⟨1, _⟩ => exact (lhs_col _ _).trans hc)
  have er : (DotDims.transposedRhs m k n).rhsIdx (ix2 a b) ((contrEquiv1 (DotDims.transposedRhs m k n) k rfl rfl).symm c) = ix2 b c :=
    funext fun ax => Fin.ext (by
      match ax with
      | ⟨0, _⟩ => exact rhs_row _ _
      | ⟨1, _⟩ => exact (rhs_col _ _).trans hc)
  rw [el, er]

end Idealize.ShloMosaic.GramMatmul

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.LibRowLayout.lean ====
/-
  Row layouts and column reductions read at an index.

  A reduction along the FIRST axis of a rank-2 array with `keepdims` leaves a row: the reduced vector `[b]` is cast to
  `[1, b]` and broadcast back to `[a, b]`, so entry `(p, c)` of the broadcast is entry `c` of the reduced vector. The
  reduction itself, over the first axis of an `[a, b]` array and read at column `q`, is the sum over that column's
  entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.RowLayout

open Idealize.ShloMosaic Idealize.ShloMosaic.ValueIdx

variable {α : Type}

/-- A reduced vector `[b]` kept as the row `[1, b]` and broadcast back along the columns reads, at `(p, c)`, the
    vector's entry `c`, whatever the row `p`. -/
theorem keepdimsRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A float sum over the first axis of an `[a, b]` array from the zero word, read at column `q` at the extended reals: the
    sum of the column's entries. -/
theorem colSum_apply {a b : ℕ} (src : FVec Ideal ⟨2, ![a, b]⟩ .f32) (h : (⟨2, ![a, b]⟩ : Shape).Reduces [0] ⟨1, ![b]⟩)
    (hφ : FKind.Formats FTy.f32) (hacc : (0x00000000#32 : BitVec FTy.f32.bits) = FKind.add.neutral .f32 hφ) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

end Idealize.ShloMosaic.RowLayout

end
-- ==== Proof.KernelAdjacency.lean ====
/-
  One graph's adjacency as the kernel body computes it, read entry by entry.

  The body's arithmetic for the adjacency block is cut into its three stages, each a function of a variable array: a
  dense layer with bias and ReLU (used twice), the Gram matrix of the embeddings' rows, and the symmetric normalisation
  in which the identity is never formed — the row sums plus one, their reciprocal square roots as a column and (transposed)
  as a row, the outer product of the two, and a select that adds the outer product on the diagonal. Each stage read at
  an entry is the corresponding function of Proof/GraphSpec.lean and Proof/LibSymNorm.lean; format changes are the identity
  on the extended reals.
-/
import proofs.«121697_j44092134261105_2_alg».proof.Proof.Gen.KernelIdeal.Skeleton
import proofs.«121697_j44092134261105_2_alg».proof.Proof.GraphSpec
import proofs.«121697_j44092134261105_2_alg».proof.Proof.LibDiagMask
import proofs.«121697_j44092134261105_2_alg».proof.Proof.LibPlainMatmul
import proofs.«121697_j44092134261105_2_alg».proof.Proof.LibGramMatmul
import proofs.«121697_j44092134261105_2_alg».proof.Proof.LibColumnLayout
import proofs.«121697_j44092134261105_2_alg».proof.Proof.LibRowLayout
import Idealize.ShloMosaic.Lib.ValueLayout
import Idealize.ShloMosaic.Lib.Pipeline.Value
import Idealize.ShloMosaic.Lib.IdealHost

noncomputable section

open scoped BigOperators

namespace Cert.KernelIdeal.Body

open Cert.KernelIdeal Cert.KernelIdeal.Gen Idealize.ShloMosaic Idealize.ShloMosaic.ValueIdx Cert.GraphSpec Idealize.ShloMosaic.SymNorm

/-! ## The stages -/

/-- A dense layer as the body spells it: the product with the weights into a zero accumulator, the bias kept as a row
    and broadcast over the nodes, the maximum with zero. -/
def denseV (h : FVec Ideal S1024x256 .bf16) (W : Vec Ideal S256x256 .f32) (b : Vec Ideal S256 .f32) : FVec Ideal S1024x256 .bf16 :=
  truncf .bf16
    (maximumf
      (addf (matmul dot_S1024x256_S256x256_S1024x256_1_0_0_1_n_n none h (truncf .bf16 W bitsLt_bf16_f32) (constant S1024x256 .f32 0x00000000#32))
        (broadcastTo S1024x256 (shapeCast S1x256 b shapeCasts_S256_S1x256) broadcasts_S1x256_S1024x256))
      (broadcast S1024x256 (Scalar.ofBits .f32 0x00000000#32)))
    bitsLt_bf16_f32

/-- The Gram matrix of the embeddings' rows: the product against the same array, both contracted on the feature axis. -/
def gramV (h : FVec Ideal S1024x256 .bf16) : FVec Ideal S1024x1024 .f32 :=
  matmul dot_S1024x256_S1024x256_S1024x1024_1_1_0_0_n_n none h h (constant S1024x1024 .f32 0x00000000#32)

/-- The column of scales: reciprocal square roots of (row sum + 1). -/
def scaleV (A : FVec Ideal S1024x1024 .f32) : FVec Ideal S1024x1 .f32 :=
  rsqrt (addf (shapeCast S1024x1 (multiReduction .add [1] S1024 A 0x00000000#32 reduces_S1024x1024_S1024 (.inl rfl) rfl) shapeCasts_S1024_S1024x1)
    (broadcast S1024x1 (Scalar.ofBits .f32 0x3F800000#32)))

/-- The outer product of the scales with themselves: the column broadcast along rows times its transpose broadcast along columns. -/
def outerV (s : FVec Ideal S1024x1 .f32) : FVec Ideal S1024x1024 .f32 :=
  mulf (broadcastTo S1024x1024 s broadcasts_S1024x1_S1024x1024)
    (broadcastTo S1024x1024 (transpose S1x1024 [1, 0] s transposes_S1024x1_p1_0_S1x1024) broadcasts_S1x1024_S1024x1024)

/-- The diagonal mask: row number against column number. -/
def diagV : IVec S1024x1024 1 :=
  cmpi .eq (broadcastTo S1024x1024 (iota .tc S1024x1 32 [0] iota_S1024x1_d0_w32) broadcasts_S1024x1_S1024x1024)
    (broadcastTo S1024x1024 (iota .tc S1x1024 32 [1] iota_S1x1024_d1_w32) broadcasts_S1x1024_S1024x1024)

/-- The normalisation: weights times the outer product, plus the outer product on the diagonal. -/
def normV (A : FVec Ideal S1024x1024 .f32) : FVec Ideal S1024x1024 .f32 :=
  select diagV (addf (mulf A (outerV (scaleV A))) (outerV (scaleV A))) (mulf A (outerV (scaleV A)))

/-- The adjacency payload is the three stages composed (the payload's text, regrouped). -/
theorem pay4_stages (P0 : Vec Ideal S1x1024x256 .f32) (P1 : Vec Ideal S256x256 .f32) (P2 : Vec Ideal S256 .f32)
    (P3 : Vec Ideal S256x256 .f32) (P4 : Vec Ideal S256 .f32) :
    k0_pay4 (F := Ideal) P0 P1 P2 P3 P4 = normV (gramV (denseV (denseV (k0_pay3 P0) P1 P2) P3 P4)) := rfl

/-! ## Each stage at an entry -/

/-- The node features of the block, with the leading unit axis dropped. -/
theorem pay3_apply (P0 : Vec Ideal S1x1024x256 .f32) (k : Fin 1024) (c : Fin 256) :
    k0_pay3 (F := Ideal) P0 (ix2 k c) = P0 (ix3 (0 : Fin 1) k c) :=
  shapeCast_1ab_ab_apply (a := 1024) (b := 256) P0 shapeCasts_S1x1024x256_S1024x256 k c

/-- The dense layer at (k, j): max(∑_c h_{kc} W_{cj} + b_j, 0). -/
theorem denseV_apply (h : FVec Ideal S1024x256 .bf16) (W : Vec Ideal S256x256 .f32) (b : Vec Ideal S256 .f32)
    (k : Fin 1024) (j : Fin 256) :
    denseV h W b (ix2 k j) = dense (fun k' c => h (ix2 k' c)) (mat W) (vec b) k j := by
  have e1 : matmul dot_S1024x256_S256x256_S1024x256_1_0_0_1_n_n none h (truncf .bf16 W bitsLt_bf16_f32) (constant S1024x256 .f32 0x00000000#32) (ix2 k j)
      = ∑ c : Fin 256, h (ix2 k c) * W (ix2 c j) :=
    PlainMatmul.matmul_zero_apply (m := 1024) (k := 256) (n := 256) none h (truncf .bf16 W bitsLt_bf16_f32) k j
  have e2 : broadcastTo S1024x256 (shapeCast S1x256 b shapeCasts_S256_S1x256) broadcasts_S1x256_S1024x256 (ix2 k j) = b (ix1 j) :=
    RowLayout.keepdimsRow_apply (a := 1024) (b := 256) b shapeCasts_S256_S1x256 broadcasts_S1x256_S1024x256 k j
  show max (_ + _) (Ideal.ofBits .f32 0x00000000#32) = _
  rw [e1, e2, Ideal.ofBits_zero_f32]
  rfl

/-- The Gram matrix at (k, l): the inner product of rows k and l. -/
theorem gramV_apply (h : FVec Ideal S1024x256 .bf16) (k l : Fin 1024) :
    gramV h (ix2 k l) = gram (fun k' c => h (ix2 k' c)) k l :=
  GramMatmul.matmul_zero_apply (m := 1024) (k := 256) (n := 1024) none h h k l

/-- The scale of row k: the reciprocal square root of its degree (row sum + 1). -/
theorem scaleV_apply (A : FVec Ideal S1024x1024 .f32) (k : Fin 1024) (u : Fin 1) :
    scaleV A (ix2 k u) = Ideal.rsqrt (degAfter (fun k' l => A (ix2 k' l)) k) := by
  have e1 : shapeCast S1024x1 (multiReduction .add [1] S1024 A 0x00000000#32 reduces_S1024x1024_S1024 (.inl rfl) rfl) shapeCasts_S1024_S1024x1 (ix2 k u)
      = ∑ l : Fin 1024, A (ix2 k l) :=
    (ColumnLayout.shapeCast_a_a1_apply (a := 1024) _ shapeCasts_S1024_S1024x1 k u).trans
      (ColumnLayout.rowSum_apply (a := 1024) (b := 1024) A reduces_S1024x1024_S1024 (.inl rfl) rfl k)
  show Ideal.rsqrt (_ + Ideal.ofBits .f32 0x3F800000#32) = _
  rw [e1, Ideal.ofBits_one_f32]
  rfl

/-- The outer product at (k, l): the two rows' scales multiplied. -/
theorem outerV_apply (s : FVec Ideal S1024x1 .f32) (k l : Fin 1024) :
    outerV s (ix2 k l) = s (ix2 k (0 : Fin 1)) * s (ix2 l (0 : Fin 1)) := by
  have e1 : broadcastTo S1024x1024 s broadcasts_S1024x1_S1024x1024 (ix2 k l) = s (ix2 k (0 : Fin 1)) :=
    ColumnLayout.broadcastTo_a1_ab_apply (a := 1024) (b := 1024) s broadcasts_S1024x1_S1024x1024 k l
  have e2 : broadcastTo S1024x1024 (transpose S1x1024 [1, 0] s transposes_S1024x1_p1_0_S1x1024) broadcasts_S1x1024_S1024x1024 (ix2 k l)
      = s (ix2 l (0 : Fin 1)) :=
    (broadcastTo_1b_ab_apply (a := 1024) (b := 1024) _ broadcasts_S1x1024_S1024x1024 k l).trans
      (transpose_ix2_apply (a := 1024) (b := 1) s transposes_S1024x1_p1_0_S1x1024 (0 : Fin 1) l)
  show _ * _ = _
  rw [e1, e2]

/-- The diagonal mask at (k, l): the comparison of the two node numbers' words. -/
theorem diagV_apply (k l : Fin 1024) :
    diagV (ix2 k l) = IntOp.cmpi .eq (BitVec.ofNat 32 k.val) (BitVec.ofNat 32 l.val) := by
  have e1 : broadcastTo S1024x1024 (iota .tc S1024x1 32 [0] iota_S1024x1_d0_w32) broadcasts_S1024x1_S1024x1024 (ix2 k l)
      = BitVec.ofNat 32 k.val :=
    (ColumnLayout.broadcastTo_a1_ab_apply (a := 1024) (b := 1024) _ broadcasts_S1024x1_S1024x1024 k l).trans
      (iota_single_apply .tc S1024x1 32 0 iota_S1024x1_d0_w32 (ix2 k (0 : Fin 1)))
  have e2 : broadcastTo S1024x1024 (iota .tc S1x1024 32 [1] iota_S1x1024_d1_w32) broadcasts_S1x1024_S1024x1024 (ix2 k l)
      = BitVec.ofNat 32 l.val :=
    (broadcastTo_1b_ab_apply (a := 1024) (b := 1024) _ broadcasts_S1x1024_S1024x1024 k l).trans
      (iota_single_apply .tc S1x1024 32 1 iota_S1x1024_d1_w32 (ix2 (0 : Fin 1) l))
  show IntOp.cmpi .eq _ _ = _
  rw [e1, e2]

/-- The normalisation at (k, l) is the entry of D^(-1/2) (A + I) D^(-1/2) in the spelling that never forms A + I. -/
theorem normV_apply (A : FVec Ideal S1024x1024 .f32) (k l : Fin 1024) :
    normV A (ix2 k l) = normAfter (fun k' l' => A (ix2 k' l')) k l := by
  have eo : outerV (scaleV A) (ix2 k l)
      = Ideal.rsqrt (degAfter (fun k' l' => A (ix2 k' l')) k) * Ideal.rsqrt (degAfter (fun k' l' => A (ix2 k' l')) l) := by
    rw [outerV_apply, scaleV_apply, scaleV_apply]
  show Scalar.select (diagV (ix2 k l)) (A (ix2 k l) * outerV (scaleV A) (ix2 k l) + outerV (scaleV A) (ix2 k l))
      (A (ix2 k l) * outerV (scaleV A) (ix2 k l)) = _
  rw [diagV_apply, DiagMask.select_diag (n := 1024) (by norm_num), eo]
  rfl

/-- **One graph's adjacency block at (k, l)**: the normalised learned edge weight, from the block's node features and
    the edge network's weights. -/
theorem pay4_apply (P0 : Vec Ideal S1x1024x256 .f32) (P1 : Vec Ideal S256x256 .f32) (P2 : Vec Ideal S256 .f32)
    (P3 : Vec Ideal S256x256 .f32) (P4 : Vec Ideal S256 .f32) (k l : Fin 1024) :
    k0_pay4 (F := Ideal) P0 P1 P2 P3 P4 (ix2 k l)
      = normAfter (gram (dense (dense (fun k' c => P0 (ix3 (0 : Fin 1) k' c)) (mat P1) (vec P2)) (mat P3) (vec P4))) k l := by
  rw [pay4_stages, normV_apply]
  congr 1
  funext k' l'
  rw [gramV_apply]
  congr 1
  funext k'' c
  rw [denseV_apply]
  congr 1
  funext k3 c3
  rw [denseV_apply]
  congr 1
  funext k4 c4
  exact pay3_apply P0 k4 c4

end Cert.KernelIdeal.Body

end
-- ==== Proof.KernelFeatures.lean ====
/-
  One graph's output features as the kernel body computes them, read entry by entry.

  The body takes the adjacency block it has just computed (any [1024, 1024] array here) and the block's node features
  and runs the two-layer graph convolution: features times a weight matrix, the adjacency applied to that product, a
  bias row, a ReLU between the layers. Every product runs into a zero accumulator, so it is a plain sum over the
  contracted position; format changes are the identity on the extended reals. Read at (k, j) the result is
  adj (relu (adj (X G₁) + g₁) G₂) + g₂ of Proof/GraphSpec.lean.
-/
import proofs.«121697_j44092134261105_2_alg».proof.Proof.Gen.KernelIdeal.Skeleton
import proofs.«121697_j44092134261105_2_alg».proof.Proof.GraphSpec
import proofs.«121697_j44092134261105_2_alg».proof.Proof.LibPlainMatmul
import proofs.«121697_j44092134261105_2_alg».proof.Proof.LibRowLayout
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.GraphSpec

/-! ## The stages -/

/-- Node features times a weight matrix. -/
def projV (h : FVec Ideal S1024x256 .bf16) (W : Vec Ideal S256x256 .f32) : FVec Ideal S1024x256 .bf16 :=
  truncf .bf16
    (matmul dot_S1024x256_S256x256_S1024x256_1_0_0_1_n_n none h (truncf .bf16 W bitsLt_bf16_f32) (constant S1024x256 .f32 0x00000000#32))
    bitsLt_bf16_f32

/-- The adjacency applied to node features: each node gathers its neighbours' rows. -/
def gatherV (a : FVec Ideal S1024x1024 .bf16) (y : FVec Ideal S1024x256 .bf16) : FVec Ideal S1024x256 .f32 :=
  matmul dot_S1024x1024_S1024x256_S1024x256_1_0_0_1_n_n none a y (constant S1024x256 .f32 0x00000000#32)

/-- A bias vector kept as a row and broadcast over the nodes. -/
def biasV (b : Vec Ideal S256 .f32) : FVec Ideal S1024x256 .f32 :=
  broadcastTo S1024x256 (shapeCast S1x256 b shapeCasts_S256_S1x256) broadcasts_S1x256_S1024x256

/-- The two-layer graph convolution as the body spells it. -/
def gcnV (X : FVec Ideal S1024x256 .bf16) (A : FVec Ideal S1024x1024 .f32) (G1 : Vec Ideal S256x256 .f32) (g1 : Vec Ideal S256 .f32)
    (G2 : Vec Ideal S256x256 .f32) (g2 : Vec Ideal S256 .f32) : FVec Ideal S1024x256 .f32 :=
  addf
    (gatherV (truncf .bf16 A bitsLt_bf16_f32)
      (projV
        (truncf .bf16
          (maximumf (addf (gatherV (truncf .bf16 A bitsLt_bf16_f32) (projV X G1)) (biasV g1))
            (broadcast S1024x256 (Scalar.ofBits .f32 0x00000000#32)))
          bitsLt_bf16_f32)
        G2))
    (biasV g2)

/-- The feature payload is that convolution with a leading unit axis added (the payload's text, regrouped). -/
theorem pay2_stages (v2 : FVec Ideal S1024x256 .bf16) (v40 : FVec Ideal S1024x1024 .f32) (v45 : Vec Ideal S256x256 .f32)
    (v50 : Vec Ideal S256 .f32) (v57 : Vec Ideal S256x256 .f32) (v62 : Vec Ideal S256 .f32) :
    k0_pay2 (F := Ideal) v2 v40 v45 v50 v57 v62
      = shapeCast S1x1024x256 (gcnV v2 v40 v45 v50 v57 v62) shapeCasts_S1024x256_S1x1024x256 := rfl

/-! ## Each stage at an entry -/

theorem projV_apply (h : FVec Ideal S1024x256 .bf16) (W : Vec Ideal S256x256 .f32) (l : Fin 1024) (j : Fin 256) :
    projV h W (ix2 l j) = ∑ c : Fin 256, h (ix2 l c) * W (ix2 c j) :=
  PlainMatmul.matmul_zero_apply (m := 1024) (k := 256) (n := 256) none h (truncf .bf16 W bitsLt_bf16_f32) l j

theorem gatherV_apply (a : FVec Ideal S1024x1024 .bf16) (y : FVec Ideal S1024x256 .bf16) (k : Fin 1024) (j : Fin 256) :
    gatherV a y (ix2 k j) = ∑ l : Fin 1024, a (ix2 k l) * y (ix2 l j) :=
  PlainMatmul.matmul_zero_apply (m := 1024) (k := 1024) (n := 256) none a y k j

theorem biasV_apply (b : Vec Ideal S256 .f32) (k : Fin 1024) (j : Fin 256) : biasV b (ix2 k j) = b (ix1 j) :=
  RowLayout.keepdimsRow_apply (a := 1024) (b := 256) b shapeCasts_S256_S1x256 broadcasts_S1x256_S1024x256 k j

/-- One convolution's product at (k, j): ∑_l A_{kl} ∑_c H_{lc} W_{cj}. -/
theorem gather_proj_apply (A : FVec Ideal S1024x1024 .f32) (h : FVec Ideal S1024x256 .bf16) (W : Vec Ideal S256x256 .f32)
    (k : Fin 1024) (j : Fin 256) :
    gatherV (truncf .bf16 A bitsLt_bf16_f32) (projV h W) (ix2 k j)
      = propagate (fun k' l => A (ix2 k' l)) (fun l c => h (ix2 l c)) (mat W) k j := by
  refine (gatherV_apply _ _ k j).trans ?_
  unfold propagate mat
  refine Finset.sum_congr rfl fun l _ => ?_
  rw [projV_apply]
  rfl

/-- The convolution at (k, j). -/
theorem gcnV_apply (X : FVec Ideal S1024x256 .bf16) (A : FVec Ideal S1024x1024 .f32) (G1 : Vec Ideal S256x256 .f32)
    (g1 : Vec Ideal S256 .f32) (G2 : Vec Ideal S256x256 .f32) (g2 : Vec Ideal S256 .f32) (k : Fin 1024) (j : Fin 256) :
    gcnV X A G1 g1 G2 g2 (ix2 k j)
      = gcn (fun k' l => A (ix2 k' l)) (fun k' c => X (ix2 k' c)) (mat G1) (vec g1) (mat G2) (vec g2) k j := by
  have hidden : ∀ (k' : Fin 1024) (j' : Fin 256),
      (truncf .bf16
          (maximumf (addf (gatherV (truncf .bf16 A bitsLt_bf16_f32) (projV X G1)) (biasV g1))
            (broadcast S1024x256 (Scalar.ofBits .f32 0x00000000#32)))
          bitsLt_bf16_f32 : FVec Ideal S1024x256 .bf16) (ix2 k' j')
        = max (propagate (fun k'' l => A (ix2 k'' l)) (fun k'' c => X (ix2 k'' c)) (mat G1) k' j' + vec g1 j') 0 := by
    intro k' j'
    show max (gatherV _ (projV X G1) (ix2 k' j') + biasV g1 (ix2 k' j')) (Ideal.ofBits .f32 0x00000000#32) = _
    rw [gather_proj_apply, biasV_apply, Ideal.ofBits_zero_f32]
    rfl
  show gatherV _ (projV _ G2) (ix2 k j) + biasV g2 (ix2 k j) = _
  rw [gather_proj_apply, biasV_apply]
  unfold gcn
  refine congrArg₂ (· + ·) ?_ rfl
  exact congrArg (fun H => propagate (fun k' l => A (ix2 k' l)) H (mat G2) k j)
    (funext fun k' => funext fun j' => hidden k' j')

/-- **One graph's feature block at (k, j)**, from the block's adjacency and node features and the convolution's weights. -/
theorem pay2_apply (v2 : FVec Ideal S1024x256 .bf16) (v40 : FVec Ideal S1024x1024 .f32) (v45 : Vec Ideal S256x256 .f32)
    (v50 : Vec Ideal S256 .f32) (v57 : Vec Ideal S256x256 .f32) (v62 : Vec Ideal S256 .f32) (u : Fin 1) (k : Fin 1024) (j : Fin 256) :
    k0_pay2 (F := Ideal) v2 v40 v45 v50 v57 v62 (ix3 u k j)
      = gcn (fun k' l => v40 (ix2 k' l)) (fun k' c => v2 (ix2 k' c)) (mat v45) (vec v50) (mat v57) (vec v62) k j := by
  rw [pay2_stages]
  exact (shapeCast_ab_1ab_apply (a := 1024) (b := 256) _ shapeCasts_S1024x256_S1x1024x256 u k j).trans
    (gcnV_apply v2 v40 v45 v50 v57 v62 k j)

/-- The adjacency payload with its leading unit axis: entry (u, k, l) is the block's entry (k, l). -/
theorem pay1_apply (v40 : FVec Ideal S1024x1024 .f32) (u : Fin 1) (k l : Fin 1024) :
    k0_pay1 (F := Ideal) v40 (ix3 u k l) = v40 (ix2 k l) :=
  shapeCast_ab_1ab_apply (a := 1024) (b := 1024) v40 shapeCasts_S1024x1024_S1x1024x1024 u k l

end Cert.KernelIdeal.Body

end
-- ==== Proof.KernelArrays.lean ====
/-
  From one graph's blocks to the whole arrays.

  The grid has 32 points, one per graph. At point t the kernel sees graph t's node features (a [1, 1024, 256] block of
  the feature array) and the whole of every weight and bias array, and writes back graph t's adjacency (a
  [1, 1024, 1024] block) and graph t's output features (a [1, 1024, 256] block). So what point t writes back is block t
  of one whole-array function of the arguments — the normalised learned adjacency of all graphs, and the graph
  convolution of all graphs with it — and since every graph has its point, the 32 blocks cover each output array:
  after the run each output array is that function of the argument arrays.
-/
import proofs.«121697_j44092134261105_2_alg».proof.Proof.Gen.KernelIdeal.Value
import proofs.«121697_j44092134261105_2_alg».proof.Proof.KernelAdjacency
import proofs.«121697_j44092134261105_2_alg».proof.Proof.KernelFeatures

noncomputable section

namespace Cert.KernelIdeal.Arrays

open Cert.KernelIdeal Cert.KernelIdeal.Gen Cert.KernelIdeal.Body Idealize.ShloMosaic Idealize.ShloMosaic.TcCoe Idealize.SL.Sem
open Idealize.ShloMosaic.ValueIdx Cert.GraphSpec
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the 32 points -/

/-- The three windows that move with the grid sit at block (t, 0, 0) at point t, and there are 32 points. -/
theorem idx_graph : ∀ t : Fin cfg0.N, t.val < 32
    ∧ (win0_0.index t (0 : Fin 3) = t.val ∧ win0_0.index t (1 : Fin 3) = 0 ∧ win0_0.index t (2 : Fin 3) = 0)
    ∧ (win0_9.index t (0 : Fin 3) = t.val ∧ win0_9.index t (1 : Fin 3) = 0 ∧ win0_9.index t (2 : Fin 3) = 0)
    ∧ (win0_10.index t (0 : Fin 3) = t.val ∧ win0_10.index t (1 : Fin 3) = 0 ∧ win0_10.index t (2 : Fin 3) = 0) :=
  (by decide +kernel : ∀ t : Fin grid0.N, _)

/-- The weight and bias windows stay at block 0 at every point. -/
theorem idx_weights : ∀ t : Fin cfg0.N,
    (win0_1.index t (0 : Fin 2) = 0 ∧ win0_1.index t (1 : Fin 2) = 0) ∧ win0_2.index t (0 : Fin 1) = 0
    ∧ (win0_3.index t (0 : Fin 2) = 0 ∧ win0_3.index t (1 : Fin 2) = 0) ∧ win0_4.index t (0 : Fin 1) = 0
    ∧ (win0_5.index t (0 : Fin 2) = 0 ∧ win0_5.index t (1 : Fin 2) = 0) ∧ win0_6.index t (0 : Fin 1) = 0
    ∧ (win0_7.index t (0 : Fin 2) = 0 ∧ win0_7.index t (1 : Fin 2) = 0) ∧ win0_8.index t (0 : Fin 1) = 0 :=
  (by decide +kernel : ∀ t : Fin grid0.N, _)

/-- The graph that grid point t works on. -/
def graphOf (t : Fin cfg0.N) : Fin 32 := ⟨t.val, (idx_graph t).1⟩

/-! ## The input blocks at a point -/

/-- The node-feature block at point t is graph t's features. -/
theorem nodes_block (c : Dev nD) (t : Fin cfg0.N) :
    (fun (k : Fin 1024) (cc : Fin 256) => (iblk m c 0 t : Vec Ideal S1x1024x256 .f32) (ix3 (0 : Fin 1) k cc))
      = nodes (V m c main_arg0) (graphOf t) := by
  obtain ⟨_, ⟨e0, e1, e2⟩, _, _⟩ := idx_graph t
  funext k cc
  show V m c main_arg0 (((cfg0.win 0).blk t).view.emb (ix3 (0 : Fin 1) k cc)) = V m c main_arg0 (ix3 (graphOf t) k cc)
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * k.val = k.val; omega
  | ⟨2, _⟩ => show win0_0.index t (2 : Fin 3) * 256 + 1 * cc.val = cc.val; omega

/-- A whole-array matrix window's block is the array. -/
theorem mat_block1 (c : Dev nD) (t : Fin cfg0.N) : mat (iblk m c 1 t : Vec Ideal S256x256 .f32) = mat (V m c main_arg2) := by
  obtain ⟨⟨e0, e1⟩, _⟩ := idx_weights t
  funext a b
  show V m c main_arg2 (((cfg0.win 1).blk t).view.emb (ix2 a b)) = V m c main_arg2 (ix2 a b)
  refine congrArg (V m c main_arg2) (funext fun ax => Fin.ext ?_)
  match ax with
  | ⟨0, _⟩ => show win0_1.index t (0 : Fin 2) * 256 + 1 * a.val = a.val; omega
  | ⟨1, _⟩ => show win0_1.index t (1 : Fin 2) * 256 + 1 * b.val = b.val; omega

theorem mat_block3 (c : Dev nD) (t : Fin cfg0.N) : mat (iblk m c 3 t : Vec Ideal S256x256 .f32) = mat (V m c main_arg4) := by
  obtain ⟨_, _, ⟨e0, e1⟩, _⟩ := idx_weights t
  funext a b
  show V m c main_arg4 (((cfg0.win 3).blk t).view.emb (ix2 a b)) = V m c main_arg4 (ix2 a b)
  refine congrArg (V m c main_arg4) (funext fun ax => Fin.ext ?_)
  match ax with
  | ⟨0, _⟩ => show win0_3.index t (0 : Fin 2) * 256 + 1 * a.val = a.val; omega
  | ⟨1, _⟩ => show win0_3.index t (1 : Fin 2) * 256 + 1 * b.val = b.val; omega

theorem mat_block5 (c : Dev nD) (t : Fin cfg0.N) : mat (iblk m c 5 t : Vec Ideal S256x256 .f32) = mat (V m c main_arg6) := by
  obtain ⟨_, _, _, _, ⟨e0, e1⟩, _⟩ := idx_weights t
  funext a b
  show V m c main_arg6 (((cfg0.win 5).blk t).view.emb (ix2 a b)) = V m c main_arg6 (ix2 a b)
  refine congrArg (V m c main_arg6) (funext fun ax => Fin.ext ?_)
  match ax with
  | ⟨0, _⟩ => show win0_5.index t (0 : Fin 2) * 256 + 1 * a.val = a.val; omega
  | ⟨1, _⟩ => show win0_5.index t (1 : Fin 2) * 256 + 1 * b.val = b.val; omega

theorem mat_block7 (c : Dev nD) (t : Fin cfg0.N) : mat (iblk m c 7 t : Vec Ideal S256x256 .f32) = mat (V m c main_arg8) := by
  obtain ⟨_, _, _, _, _, _, ⟨e0, e1⟩, _⟩ := idx_weights t
  funext a b
  show V m c main_arg8 (((cfg0.win 7).blk t).view.emb (ix2 a b)) = V m c main_arg8 (ix2 a b)
  refine congrArg (V m c main_arg8) (funext fun ax => Fin.ext ?_)
  match ax with
  | ⟨0, _⟩ => show win0_7.index t (0 : Fin 2) * 256 + 1 * a.val = a.val; omega
  | ⟨1, _⟩ => show win0_7.index t (1 : Fin 2) * 256 + 1 * b.val = b.val; omega

/-- A whole-array bias window's block is the array. -/
theorem vec_block2 (c : Dev nD) (t : Fin cfg0.N) : vec (iblk m c 2 t : Vec Ideal S256 .f32) = vec (V m c main_arg3) := by
  obtain ⟨_, e0, _⟩ := idx_weights t
  funext a
  show V m c main_arg3 (((cfg0.win 2).blk t).view.emb (ix1 a)) = V m c main_arg3 (ix1 a)
  refine congrArg (V m c main_arg3) (funext fun ax => Fin.ext ?_)
  match ax with
  | ⟨0, _⟩ => show win0_2.index t (0 : Fin 1) * 256 + 1 * a.val = a.val; omega

theorem vec_block4 (c : Dev nD) (t : Fin cfg0.N) : vec (iblk m c 4 t : Vec Ideal S256 .f32) = vec (V m c main_arg5) := by
  obtain ⟨_, _, _, e0, _⟩ := idx_weights t
  funext a
  show V m c main_arg5 (((cfg0.win 4).blk t).view.emb (ix1 a)) = V m c main_arg5 (ix1 a)
  refine congrArg (V m c main_arg5) (funext fun ax => Fin.ext ?_)
  match ax with
  | ⟨0, _⟩ => show win0_4.index t (0 : Fin 1) * 256 + 1 * a.val = a.val; omega

theorem vec_block6 (c : Dev nD) (t : Fin cfg0.N) : vec (iblk m c 6 t : Vec Ideal S256 .f32) = vec (V m c main_arg7) := by
  obtain ⟨_, _, _, _, _, e0, _⟩ := idx_weights t
  funext a
  show V m c main_arg7 (((cfg0.win 6).blk t).view.emb (ix1 a)) = V m c main_arg7 (ix1 a)
  refine congrArg (V m c main_arg7) (funext fun ax => Fin.ext ?_)
  match ax with
  | ⟨0, _⟩ => show win0_6.index t (0 : Fin 1) * 256 + 1 * a.val = a.val; omega

theorem vec_block8 (c : Dev nD) (t : Fin cfg0.N) : vec (iblk m c 8 t : Vec Ideal S256 .f32) = vec (V m c main_arg9) := by
  obtain ⟨_, _, _, _, _, _, _, e0⟩ := idx_weights t
  funext a
  show V m c main_arg9 (((cfg0.win 8).blk t).view.emb (ix1 a)) = V m c main_arg9 (ix1 a)
  refine congrArg (V m c main_arg9) (funext fun ax => Fin.ext ?_)
  match ax with
  | ⟨0, _⟩ => show win0_8.index t (0 : Fin 1) * 256 + 1 * a.val = a.val; omega

/-! ## One point's results as entries of the whole-array functions, over variable blocks -/

section Entries
variable (x : SX.Idx → EReal) (W₁ : SW.Idx → EReal) (b₁ : SB.Idx → EReal) (W₂ : SW.Idx → EReal) (b₂ : SB.Idx → EReal)
  (G₁ : SW.Idx → EReal) (g₁ : SB.Idx → EReal) (G₂ : SW.Idx → EReal) (g₂ : SB.Idx → EReal) (g : Fin 32)
  (B0 : Vec Ideal S1x1024x256 .f32) (B1 : Vec Ideal S256x256 .f32) (B2 : Vec Ideal S256 .f32) (B3 : Vec Ideal S256x256 .f32)
  (B4 : Vec Ideal S256 .f32) (B5 : Vec Ideal S256x256 .f32) (B6 : Vec Ideal S256 .f32) (B7 : Vec Ideal S256x256 .f32)
  (B8 : Vec Ideal S256 .f32)

/-- If the blocks are graph g's features and the edge network's weights, the adjacency payload at (u, k, l) is the
    whole adjacency array at (g, k, l). -/
theorem adj_entry (h0 : (fun (k : Fin 1024) (c : Fin 256) => B0 (ix3 (0 : Fin 1) k c)) = nodes x g)
    (h1 : mat B1 = mat W₁) (h2 : vec B2 = vec b₁) (h3 : mat B3 = mat W₂) (h4 : vec B4 = vec b₂)
    (j : S1x1024x1024.Idx) (e : S32x1024x1024.Idx) (he0 : (e 0).val = g.val) (he1 : (e 1).val = (j 1).val)
    (he2 : (e 2).val = (j 2).val) :
    k0_pay1 (F := Ideal) (k0_pay4 B0 B1 B2 B3 B4) j = adjAfter x W₁ b₁ W₂ b₂ e := by
  obtain ⟨u, k, l, rfl⟩ : ∃ (u : Fin 1) (k l : Fin 1024), j = ix3 u k l := ⟨j 0, j 1, j 2, eq_ix3 j⟩
  have hee : e = ix3 g k l := funext fun a => Fin.ext (by
    match a with
    | ⟨0, _⟩ => exact he0
    | ⟨1, _⟩ => exact he1
    | ⟨2, _⟩ => exact he2)
  rw [hee, pay1_apply, pay4_apply, h0, h1, h2, h3, h4, adjAfter_ix3]
  rfl

/-- Likewise the feature payload at (u, k, j) is the whole feature array at (g, k, j). -/
theorem feats_entry (h0 : (fun (k : Fin 1024) (c : Fin 256) => B0 (ix3 (0 : Fin 1) k c)) = nodes x g)
    (h1 : mat B1 = mat W₁) (h2 : vec B2 = vec b₁) (h3 : mat B3 = mat W₂) (h4 : vec B4 = vec b₂)
    (h5 : mat B5 = mat G₁) (h6 : vec B6 = vec g₁) (h7 : mat B7 = mat G₂) (h8 : vec B8 = vec g₂)
    (j : S1x1024x256.Idx) (e : S32x1024x256.Idx) (he0 : (e 0).val = g.val) (he1 : (e 1).val = (j 1).val)
    (he2 : (e 2).val = (j 2).val) :
    k0_pay2 (F := Ideal) (k0_pay3 B0) (k0_pay4 B0 B1 B2 B3 B4) B5 B6 B7 B8 j
      = feats (adjAfter x W₁ b₁ W₂ b₂) x G₁ g₁ G₂ g₂ e := by
  obtain ⟨u, k, jj, rfl⟩ : ∃ (u : Fin 1) (k : Fin 1024) (jj : Fin 256), j = ix3 u k jj := ⟨j 0, j 1, j 2, eq_ix3 j⟩
  have hee : e = ix3 g k jj := funext fun a => Fin.ext (by
    match a with
    | ⟨0, _⟩ => exact he0
    | ⟨1, _⟩ => exact he1
    | ⟨2, _⟩ => exact he2)
  have ha : (fun (k' l : Fin 1024) => k0_pay4 (F := Ideal) B0 B1 B2 B3 B4 (ix2 k' l))
      = fun k' l => adjAfter x W₁ b₁ W₂ b₂ (ix3 g k' l) := by
    funext k' l
    rw [pay4_apply, h0, h1, h2, h3, h4, adjAfter_ix3]
    rfl
  have hx : (fun (k' : Fin 1024) (c : Fin 256) => k0_pay3 (F := Ideal) B0 (ix2 k' c)) = nodes x g := by
    rw [← h0]
    funext k' c
    exact pay3_apply B0 k' c
  rw [hee, pay2_apply, feats_ix3, ha, hx, h5, h6, h7, h8]

end Entries

/-! ## What point t writes back -/

/-- Point t writes back block t of the whole adjacency array. -/
theorem flushed9_eq (c : Dev nD) (t : Fin cfg0.N) :
    (dats m 0 c).flushed 9 t = ((cfg0.win 9).blk t).view.read (Elt Ideal)
      (adjAfter (V m c main_arg0) (V m c main_arg2) (V m c main_arg3) (V m c main_arg4) (V m c main_arg5)) := by
  rw [Value.flushed9]
  unfold out0_9
  rw [View.canon_unit_zero hz3]
  simp only [View.ld_unit_zero (S := S1x1024x256) hz3, View.ld_unit_zero (S := S256x256) hz2, View.ld_unit_zero (S := S256) hz1]
  obtain ⟨_, _, ⟨e0, e1, e2⟩, _⟩ := idx_graph t
  funext j
  show k0_pay1 (F := Ideal) (k0_pay4 (iblk m c 0 t) (iblk m c 1 t) (iblk m c 2 t) (iblk m c 3 t) (iblk m c 4 t)) j
    = adjAfter (V m c main_arg0) (V m c main_arg2) (V m c main_arg3) (V m c main_arg4) (V m c main_arg5)
        (((cfg0.win 9).blk t).view.emb j)
  refine adj_entry (V m c main_arg0) (V m c main_arg2) (V m c main_arg3) (V m c main_arg4) (V m c main_arg5) (graphOf t)
    (iblk m c 0 t) (iblk m c 1 t) (iblk m c 2 t) (iblk m c 3 t) (iblk m c 4 t)
    (nodes_block m c t) (mat_block1 m c t) (vec_block2 m c t) (mat_block3 m c t) (vec_block4 m c t) j _ ?_ ?_ ?_
  · show win0_9.index t (0 : Fin 3) * 1 + 1 * (j 0).val = t.val
    have hj : (j 0).val < 1 := (j 0).isLt
    omega
  · show win0_9.index t (1 : Fin 3) * 1024 + 1 * (j 1).val = (j 1).val
    omega
  · show win0_9.index t (2 : Fin 3) * 1024 + 1 * (j 2).val = (j 2).val
    omega

/-- Point t writes back block t of the whole feature array. -/
theorem flushed10_eq (c : Dev nD) (t : Fin cfg0.N) :
    (dats m 0 c).flushed 10 t = ((cfg0.win 10).blk t).view.read (Elt Ideal)
      (feats (adjAfter (V m c main_arg0) (V m c main_arg2) (V m c main_arg3) (V m c main_arg4) (V m c main_arg5))
        (V m c main_arg0) (V m c main_arg6) (V m c main_arg7) (V m c main_arg8) (V m c main_arg9)) := by
  rw [Value.flushed10]
  unfold out0_10
  rw [View.canon_unit_zero hz3]
  simp only [View.ld_unit_zero (S := S1x1024x256) hz3, View.ld_unit_zero (S := S256x256) hz2, View.ld_unit_zero (S := S256) hz1]
  obtain ⟨_, _, _, ⟨e0, e1, e2⟩⟩ := idx_graph t
  funext j
  show k0_pay2 (F := Ideal) (k0_pay3 (iblk m c 0 t))
      (k0_pay4 (iblk m c 0 t) (iblk m c 1 t) (iblk m c 2 t) (iblk m c 3 t) (iblk m c 4 t))
      (iblk m c 5 t) (iblk m c 6 t) (iblk m c 7 t) (iblk m c 8 t) j
    = feats (adjAfter (V m c main_arg0) (V m c main_arg2) (V m c main_arg3) (V m c main_arg4) (V m c main_arg5))
        (V m c main_arg0) (V m c main_arg6) (V m c main_arg7) (V m c main_arg8) (V m c main_arg9)
        (((cfg0.win 10).blk t).view.emb j)
  refine feats_entry (V m c main_arg0) (V m c main_arg2) (V m c main_arg3) (V m c main_arg4) (V m c main_arg5)
    (V m c main_arg6) (V m c main_arg7) (V m c main_arg8) (V m c main_arg9) (graphOf t)
    (iblk m c 0 t) (iblk m c 1 t) (iblk m c 2 t) (iblk m c 3 t) (iblk m c 4 t) (iblk m c 5 t) (iblk m c 6 t) (iblk m c 7 t)
    (iblk m c 8 t)
    (nodes_block m c t) (mat_block1 m c t) (vec_block2 m c t) (mat_block3 m c t) (vec_block4 m c t)
    (mat_block5 m c t) (vec_block6 m c t) (mat_block7 m c t) (vec_block8 m c t) j _ ?_ ?_ ?_
  · show win0_10.index t (0 : Fin 3) * 1 + 1 * (j 0).val = t.val
    have hj : (j 0).val < 1 := (j 0).isLt
    omega
  · show win0_10.index t (1 : Fin 3) * 1024 + 1 * (j 1).val = (j 1).val
    omega
  · show win0_10.index t (2 : Fin 3) * 256 + 1 * (j 2).val = (j 2).val
    omega

/-! ## The blocks cover the arrays -/

/-- An index is in point t's adjacency block iff each coordinate is in the block's range on its axis. -/
theorem mem_blk9 (t : Fin cfg0.N) (i : S32x1024x1024.Idx) :
    i ∈ ((cfg0.win 9).blk t).view.set ↔ ∀ a : Fin 3, win0_9.index t a * S1x1024x1024.size a ≤ (i a).val
      ∧ (i a).val < win0_9.index t a * S1x1024x1024.size a + S1x1024x1024.size a := by
  show i ∈ ((View.whole main_v0_0).slice (win0_9.rect t)).set ↔ _
  rw [View.set_slice_whole, Rect.mem_set_unit]
  exact Iff.rfl

theorem mem_blk10 (t : Fin cfg0.N) (i : S32x1024x256.Idx) :
    i ∈ ((cfg0.win 10).blk t).view.set ↔ ∀ a : Fin 3, win0_10.index t a * S1x1024x256.size a ≤ (i a).val
      ∧ (i a).val < win0_10.index t a * S1x1024x256.size a + S1x1024x256.size a := by
  show i ∈ ((View.whole main_v0_1).slice (win0_10.rect t)).set ↔ _
  rw [View.set_slice_whole, Rect.mem_set_unit]
  exact Iff.rfl

/-- The point that works on graph q. -/
def pointOf (q : Fin 32) : Fin cfg0.N := ⟨q.val, by rw [show cfg0.N = 32 from N_0]; exact q.isLt⟩

/-- Every entry of the adjacency array is in its graph's point's block. -/
theorem cover9 (i : S32x1024x1024.Idx) :
    ∃ t : Fin cfg0.N, (cfg0.win 9).flush t = true ∧ i ∈ ((cfg0.win 9).blk t).view.set := by
  have hi0 : (i 0).val < 32 := (i 0).isLt
  have hi1 : (i 1).val < 1024 := (i 1).isLt
  have hi2 : (i 2).val < 1024 := (i 2).isLt
  obtain ⟨_, _, ⟨e0, e1, e2⟩, _⟩ := idx_graph (pointOf ⟨(i 0).val, hi0⟩)
  have ht : (pointOf ⟨(i 0).val, hi0⟩).val = (i 0).val := rfl
  refine ⟨pointOf ⟨(i 0).val, hi0⟩, flush0_9 _, ?_⟩
  rw [mem_blk9]
  intro a
  match a with
  | ⟨0, _⟩ =>
    show win0_9.index (pointOf ⟨(i 0).val, hi0⟩) (0 : Fin 3) * 1 ≤ (i 0).val
      ∧ (i 0).val < win0_9.index (pointOf ⟨(i 0).val, hi0⟩) (0 : Fin 3) * 1 + 1
    omega
  | ⟨1, _⟩ =>
    show win0_9.index (pointOf ⟨(i 0).val, hi0⟩) (1 : Fin 3) * 1024 ≤ (i 1).val
      ∧ (i 1).val < win0_9.index (pointOf ⟨(i 0).val, hi0⟩) (1 : Fin 3) * 1024 + 1024
    omega
  | ⟨2, _⟩ =>
    show win0_9.index (pointOf ⟨(i 0).val, hi0⟩) (2 : Fin 3) * 1024 ≤ (i 2).val
      ∧ (i 2).val < win0_9.index (pointOf ⟨(i 0).val, hi0⟩) (2 : Fin 3) * 1024 + 1024
    omega

/-- Every entry of the feature array is in its graph's point's block. -/
theorem cover10 (i : S32x1024x256.Idx) :
    ∃ t : Fin cfg0.N, (cfg0.win 10).flush t = true ∧ i ∈ ((cfg0.win 10).blk t).view.set := by
  have hi0 : (i 0).val < 32 := (i 0).isLt
  have hi1 : (i 1).val < 1024 := (i 1).isLt
  have hi2 : (i 2).val < 256 := (i 2).isLt
  obtain ⟨_, _, _, ⟨e0, e1, e2⟩⟩ := idx_graph (pointOf ⟨(i 0).val, hi0⟩)
  have ht : (pointOf ⟨(i 0).val, hi0⟩).val = (i 0).val := rfl
  refine ⟨pointOf ⟨(i 0).val, hi0⟩, flush0_10 _, ?_⟩
  rw [mem_blk10]
  intro a
  match a with
  | ⟨0, _⟩ =>
    show win0_10.index (pointOf ⟨(i 0).val, hi0⟩) (0 : Fin 3) * 1 ≤ (i 0).val
      ∧ (i 0).val < win0_10.index (pointOf ⟨(i 0).val, hi0⟩) (0 : Fin 3) * 1 + 1
    omega
  | ⟨1, _⟩ =>
    show win0_10.index (pointOf ⟨(i 0).val, hi0⟩) (1 : Fin 3) * 1024 ≤ (i 1).val
      ∧ (i 1).val < win0_10.index (pointOf ⟨(i 0).val, hi0⟩) (1 : Fin 3) * 1024 + 1024
    omega
  | ⟨2, _⟩ =>
    show win0_10.index (pointOf ⟨(i 0).val, hi0⟩) (2 : Fin 3) * 256 ≤ (i 2).val
      ∧ (i 2).val < win0_10.index (pointOf ⟨(i 0).val, hi0⟩) (2 : Fin 3) * 256 + 256
    omega

/-! ## The arrays after the run -/

/-- The adjacency output after the run. -/
theorem final9 (c : Dev nD) : (dats m 0 c).arrAt 9 cfg0.N
    = adjAfter (V m c main_arg0) (V m c main_arg2) (V m c main_arg3) (V m c main_arg4) (V m c main_arg5) :=
  (dats m 0 c).arrAt_eq_of_cover 9 _ (fun t _ => flushed9_eq m c t) cover9

/-- The feature output after the run. -/
theorem final10 (c : Dev nD) : (dats m 0 c).arrAt 10 cfg0.N
    = feats (adjAfter (V m c main_arg0) (V m c main_arg2) (V m c main_arg3) (V m c main_arg4) (V m c main_arg5))
        (V m c main_arg0) (V m c main_arg6) (V m c main_arg7) (V m c main_arg8) (V m c main_arg9) :=
  (dats m 0 c).arrAt_eq_of_cover 10 _ (fun t _ => flushed10_eq m c t) cover10

/-- **The kernel's run, read**: every weakly fair execution terminates with the adjacency output at the normalised
    learned adjacency of the arguments, the feature output at the graph convolution with it, the arguments unchanged. -/
theorem run : θ_run defs (onTc (τ := τ) (main (F := Ideal))) ⟨m, fun _ => 0, ρ⟩ fun r => ∀ c : Dev nD,
      r.2.mem ((c : Thread nD τ).loc main_v0_0)
        = adjAfter (V m c main_arg0) (V m c main_arg2) (V m c main_arg3) (V m c main_arg4) (V m c main_arg5)
      ∧ r.2.mem ((c : Thread nD τ).loc main_v0_1)
        = feats (adjAfter (V m c main_arg0) (V m c main_arg2) (V m c main_arg3) (V m c main_arg4) (V m c main_arg5))
            (V m c main_arg0) (V m c main_arg6) (V m c main_arg7) (V m c main_arg8) (V m c main_arg9)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final9 m c), (h c).2.1.trans (final10 m c), (h c).2.2⟩)
    (Value.run_blocks m ρ)

end Cert.KernelIdeal.Arrays

end
-- ==== Proof.ReferenceValue.lean ====
/-
  What the reference computes, read entry by entry: its adjacency is D^(-1/2) (A + I) D^(-1/2) spelt through A + I and
  the power -1/2 (Proof/LibSymNorm.lean's second spelling) of the learned edge weights, and its features are the
  two-layer graph convolution with that adjacency (Proof/GraphSpec.lean).

  The reference works on all 32 graphs at once, so every stage is read at (g, k, ·): the contractions run over the
  feature or the neighbour axis with g and k fixed, the biases are broadcast from their one axis, the identity comes
  from comparing the row and column numbers, and the scales d^(-1/2) are broadcast along rows and along columns.
-/
import proofs.«121697_j44092134261105_2_alg».proof.Proof.Gen.ReferenceIdeal.Read
import proofs.«121697_j44092134261105_2_alg».proof.Proof.GraphSpec
import proofs.«121697_j44092134261105_2_alg».proof.Proof.LibDiagMask

noncomputable section

open scoped BigOperators

namespace Cert.ReferenceIdeal.RefValue

open Cert.ReferenceIdeal Cert.ReferenceIdeal.Gen Cert.ReferenceIdeal.Read Idealize.ShloMosaic Idealize.ShloMosaic.ValueIdx
open Cert.GraphSpec Idealize.ShloMosaic.SymNorm

/-- Two indices of a rank-1 array are equal when their coordinates are. -/
macro "coords1" : tactic => `(tactic| exact funext fun a => Fin.ext (by match a with | ⟨0, _⟩ => rfl))
/-- Two indices of a rank-2 array are equal when their coordinates are. -/
macro "coords2" : tactic => `(tactic| exact funext fun a => Fin.ext (by match a with | ⟨0, _⟩ => rfl | ⟨1, _⟩ => rfl))
/-- Two indices of a rank-3 array are equal when their coordinates are. -/
macro "coords3" : tactic =>
  `(tactic| exact funext fun a => Fin.ext (by match a with | ⟨0, _⟩ => rfl | ⟨1, _⟩ => rfl | ⟨2, _⟩ => rfl))

/-- The binary32 word of -0.5 is the real -1/2. -/
theorem ofBits_negHalf : Ideal.ofBits .f32 0xBF000000#32 = negHalf := by
  simp [Ideal.ofBits, Ideal.ieee, -EReal.coe_mul, -EReal.coe_neg]; norm_num

variable (x0 : (⟨S32x1024x256, .f32⟩ : BufTy).Contents (Elt Ideal)) (x2 : (⟨S256x256, .f32⟩ : BufTy).Contents (Elt Ideal))
  (x3 : (⟨S256, .f32⟩ : BufTy).Contents (Elt Ideal)) (x4 : (⟨S256x256, .f32⟩ : BufTy).Contents (Elt Ideal))
  (x5 : (⟨S256, .f32⟩ : BufTy).Contents (Elt Ideal)) (x6 : (⟨S256x256, .f32⟩ : BufTy).Contents (Elt Ideal))
  (x7 : (⟨S256, .f32⟩ : BufTy).Contents (Elt Ideal)) (x8 : (⟨S256x256, .f32⟩ : BufTy).Contents (Elt Ideal))
  (x9 : (⟨S256, .f32⟩ : BufTy).Contents (Elt Ideal))

/-! ## The edge network -/

/-- The first dense layer at (g, k, j). -/
theorem layer1_apply (g : Fin 32) (k : Fin 1024) (j : Fin 256) :
    val_main_v4 (F := Ideal) x0 x2 x3 (ix3 g k j) = dense (nodes x0 g) (mat x2) (vec x3) k j := by
  have el : ∀ c : Fin 256, lidx_main_v0 (ix3 g k j) c = ix3 g k c := fun c => by coords3
  have er : ∀ c : Fin 256, ridx_main_v0 (ix3 g k j) c = ix2 c j := fun c => by coords2
  have eb : idx_main_v1 (idx_main_v2 (ix3 g k j)) = ix1 j := by coords1
  rw [val_main_v4_apply, val_main_v3_apply, val_main_v0_apply, val_main_v2_apply, val_main_v1_apply, val_main_call0_v0_apply,
    val_main_call0_cst_apply]
  simp only [el, er, eb]
  show max ((∑ c : Fin 256, x0 (ix3 g k c) * x2 (ix2 c j)) + x3 (ix1 j)) (Ideal.ofBits .f32 0x00000000#32) = _
  rw [Ideal.ofBits_zero_f32]
  rfl

/-- The second dense layer at (g, k, j): the embeddings. -/
theorem layer2_apply (g : Fin 32) (k : Fin 1024) (j : Fin 256) :
    val_main_v9 (F := Ideal) x0 x2 x3 x4 x5 (ix3 g k j)
      = dense (dense (nodes x0 g) (mat x2) (vec x3)) (mat x4) (vec x5) k j := by
  have el : ∀ c : Fin 256, lidx_main_v5 (ix3 g k j) c = ix3 g k c := fun c => by coords3
  have er : ∀ c : Fin 256, ridx_main_v5 (ix3 g k j) c = ix2 c j := fun c => by coords2
  have eb : idx_main_v6 (idx_main_v7 (ix3 g k j)) = ix1 j := by coords1
  rw [val_main_v9_apply, val_main_v8_apply, val_main_v5_apply, val_main_v7_apply, val_main_v6_apply, val_main_call1_v0_apply,
    val_main_call1_cst_apply]
  simp only [el, er, eb, layer1_apply]
  show max ((∑ c : Fin 256, dense (nodes x0 g) (mat x2) (vec x3) k c * x4 (ix2 c j)) + x5 (ix1 j))
    (Ideal.ofBits .f32 0x00000000#32) = _
  rw [Ideal.ofBits_zero_f32]
  rfl

/-- The learned edge weights at (g, k, l): the inner product of embeddings k and l of graph g. -/
theorem edges_apply (g : Fin 32) (k l : Fin 1024) :
    val_main_v10 (F := Ideal) x0 x2 x3 x4 x5 (ix3 g k l) = edges x0 x2 x3 x4 x5 g k l := by
  have el : ∀ c : Fin 256, lidx_main_v10 (ix3 g k l) c = ix3 g k c := fun c => by coords3
  have er : ∀ c : Fin 256, ridx_main_v10 (ix3 g k l) c = ix3 g l c := fun c => by coords3
  rw [val_main_v10_apply]
  simp only [el, er, layer2_apply]
  rfl

/-! ## The normalisation -/

/-- The identity, broadcast over the graphs, at (g, k, l). -/
theorem eye_apply (g : Fin 32) (k l : Fin 1024) : val_main_v18 (F := Ideal) (ix3 g k l) = eye k l := by
  have e1 : idx_main_v17 (idx_main_v18 (ix3 g k l)) = ix2 k l := by coords2
  rw [val_main_v18_apply, val_main_v17_apply, e1, val_main_v16_apply, val_main_v15_apply, val_main_v14_apply, val_main_v11_apply,
    val_main_v13_apply, val_main_c_apply, val_main_v12_apply]
  show FloatOps.uitofp (F := Ideal) .f32 (IntOp.cmpi .eq (BitVec.ofNat 32 k.val + 0#32) (BitVec.ofNat 32 l.val)) = _
  rw [BitVec.add_zero, DiagMask.uitofp_diag (n := 1024) (by norm_num)]
  rfl

/-- The row degree of A + I at (g, k). -/
theorem deg_apply (g : Fin 32) (k : Fin 1024) :
    val_main_v20 (F := Ideal) x0 x2 x3 x4 x5 (ix2 g k) = degLoop (edges x0 x2 x3 x4 x5 g) k := by
  have e : ∀ l : Fin 1024, idx_main_v20 (ix2 g k) l = ix3 g k l := fun l => by coords3
  rw [val_main_v20_apply, val_main_cst_apply]
  simp only [e, val_main_v19_apply, edges_apply, eye_apply]
  show Ideal.ofBits .f32 0x00000000#32 + ∑ l : Fin 1024, (edges x0 x2 x3 x4 x5 g k l + eye k l) = _
  rw [Ideal.ofBits_zero_f32, zero_add]
  rfl

/-- The scale d^(-1/2) at (g, k). -/
theorem scale_apply (g : Fin 32) (k : Fin 1024) :
    val_main_v22 (F := Ideal) x0 x2 x3 x4 x5 (ix2 g k) = Ideal.pow (degLoop (edges x0 x2 x3 x4 x5 g) k) negHalf := by
  rw [val_main_v22_apply, deg_apply, val_main_v21_apply, val_main_cst_0_apply]
  show Ideal.pow _ (Ideal.ofBits .f32 0xBF000000#32) = _
  rw [ofBits_negHalf]

/-- The adjacency at (g, k, l). -/
theorem adj_apply (g : Fin 32) (k l : Fin 1024) :
    val_main_v28 (F := Ideal) x0 x2 x3 x4 x5 (ix3 g k l) = normLoop (edges x0 x2 x3 x4 x5 g) k l := by
  have e1 : idx_main_v23 (idx_main_v24 (ix3 g k l)) = ix2 g k := by coords2
  have e2 : idx_main_v26 (idx_main_v27 (ix3 g k l)) = ix2 g l := by coords2
  rw [val_main_v28_apply, val_main_v25_apply, val_main_v24_apply, val_main_v23_apply, e1, val_main_v27_apply, val_main_v26_apply, e2,
    val_main_v19_apply, scale_apply, scale_apply, edges_apply, eye_apply]
  rfl

/-- **The reference's adjacency array** is the second spelling of the normalised learned edge weights. -/
theorem adj_eq : val_main_v28 (F := Ideal) x0 x2 x3 x4 x5 = adjLoop x0 x2 x3 x4 x5 := by
  funext i
  obtain ⟨g, k, l, rfl⟩ : ∃ (g : Fin 32) (k l : Fin 1024), i = ix3 g k l := ⟨i 0, i 1, i 2, eq_ix3 i⟩
  rw [adjLoop_ix3]
  exact adj_apply x0 x2 x3 x4 x5 g k l

/-! ## The graph convolution -/

/-- Graph g's adjacency as the reference holds it. -/
abbrev refAdj (g : Fin 32) : Fin 1024 → Fin 1024 → EReal := fun k l => val_main_v28 (F := Ideal) x0 x2 x3 x4 x5 (ix3 g k l)

/-- The first convolution's product at (g, k, j). -/
theorem conv1_apply (g : Fin 32) (k : Fin 1024) (j : Fin 256) :
    val_main_v30 (F := Ideal) x0 x2 x3 x4 x5 x6 (ix3 g k j) = propagate (refAdj x0 x2 x3 x4 x5 g) (nodes x0 g) (mat x6) k j := by
  have el : ∀ l : Fin 1024, lidx_main_v30 (ix3 g k j) l = ix3 g k l := fun l => by coords3
  have er : ∀ l : Fin 1024, ridx_main_v30 (ix3 g k j) l = ix3 g l j := fun l => by coords3
  have pl : ∀ (l : Fin 1024) (c : Fin 256), lidx_main_v29 (ix3 g l j) c = ix3 g l c := fun l c => by coords3
  have pr : ∀ (l : Fin 1024) (c : Fin 256), ridx_main_v29 (ix3 g l j) c = ix2 c j := fun l c => by coords2
  rw [val_main_v30_apply]
  simp only [el, er, val_main_v29_apply, pl, pr]
  rfl

/-- The hidden features after the first layer's bias and ReLU, at (g, k, j). -/
theorem hidden_apply (g : Fin 32) (k : Fin 1024) (j : Fin 256) :
    val_main_v34 (F := Ideal) x0 x2 x3 x4 x5 x6 x7 (ix3 g k j)
      = max (propagate (refAdj x0 x2 x3 x4 x5 g) (nodes x0 g) (mat x6) k j + vec x7 j) 0 := by
  have eb : idx_main_v31 (idx_main_v32 (ix3 g k j)) = ix1 j := by coords1
  rw [val_main_v34_apply, val_main_v33_apply, conv1_apply, val_main_v32_apply, val_main_v31_apply, eb, val_main_call2_v0_apply,
    val_main_call2_cst_apply]
  show max (_ + x7 (ix1 j)) (Ideal.ofBits .f32 0x00000000#32) = _
  rw [Ideal.ofBits_zero_f32]
  rfl

/-- The features at (g, k, j): the two-layer graph convolution with the reference's own adjacency. -/
theorem feats_apply (g : Fin 32) (k : Fin 1024) (j : Fin 256) :
    val_main_v39 (F := Ideal) x0 x2 x3 x4 x5 x6 x7 x8 x9 (ix3 g k j)
      = gcn (refAdj x0 x2 x3 x4 x5 g) (nodes x0 g) (mat x6) (vec x7) (mat x8) (vec x9) k j := by
  have el : ∀ l : Fin 1024, lidx_main_v36 (ix3 g k j) l = ix3 g k l := fun l => by coords3
  have er : ∀ l : Fin 1024, ridx_main_v36 (ix3 g k j) l = ix3 g l j := fun l => by coords3
  have pl : ∀ (l : Fin 1024) (c : Fin 256), lidx_main_v35 (ix3 g l j) c = ix3 g l c := fun l c => by coords3
  have pr : ∀ (l : Fin 1024) (c : Fin 256), ridx_main_v35 (ix3 g l j) c = ix2 c j := fun l c => by coords2
  have eb : idx_main_v37 (idx_main_v38 (ix3 g k j)) = ix1 j := by coords1
  rw [val_main_v39_apply, val_main_v36_apply, val_main_v38_apply, val_main_v37_apply, eb]
  simp only [el, er, val_main_v35_apply, pl, pr, hidden_apply]
  rfl

/-- **The reference's feature array** is the convolution with its own adjacency array. -/
theorem feats_eq : val_main_v39 (F := Ideal) x0 x2 x3 x4 x5 x6 x7 x8 x9
    = feats (val_main_v28 (F := Ideal) x0 x2 x3 x4 x5) x0 x6 x7 x8 x9 := by
  funext i
  obtain ⟨g, k, j, rfl⟩ : ∃ (g : Fin 32) (k : Fin 1024) (j : Fin 256), i = ix3 g k j := ⟨i 0, i 1, i 2, eq_ix3 i⟩
  rw [feats_ix3]
  exact feats_apply x0 x2 x3 x4 x5 x6 x7 x8 x9 g k j

end Cert.ReferenceIdeal.RefValue

end
-- ==== Proof.lean ====
/- The proof of `Cert.Claim` for a fused graph module: 32 graphs of 1024 nodes, edge weights learned from the node
   features (two dense layers with ReLU, then the Gram matrix of the embeddings), normalised symmetrically with
   self-loops, D^(-1/2) (A + I) D^(-1/2), and a two-layer graph convolution with the normalised adjacency. Both programs
   return the adjacency and the convolved features.

   The kernel handles one graph per grid point and never forms A + I: its degree is (row sum of A) + 1, its scale the
   reciprocal square root, and it adds the outer product of the scales on the diagonal. The reference forms A + I,
   sums its rows, raises to the power -1/2 and multiplies d_k^(-1/2) (A + I)_{kl} d_l^(-1/2). Over the extended reals the
   two agree because learned edge weights are inner products of ReLU outputs, hence nonnegative (possibly +∞): every
   degree is at least one, where the reciprocal square root and the power -1/2 coincide and are nonnegative, and
   multiplication distributes over sums of nonnegative terms (Proof/LibSymNorm.lean). No finiteness of the inputs is used.
   Everything else is the same sums on both sides: matrix products into zero accumulators are plain sums over the
   contracted position, and changes of float format are the identity.

   Modules: Proof/LibSymNorm.lean (the two spellings of the normalisation agree), Proof/GraphSpec.lean (the mathematics,
   once), Proof/KernelAdjacency.lean and Proof/KernelFeatures.lean (one graph's block as the kernel body computes it),
   Proof/KernelArrays.lean (from the 32 blocks to the whole output arrays), Proof/ReferenceValue.lean (the reference's
   two results), and the general lemma files Proof/Lib*.lean. The frames are the generated
   ones; the reference's frame is its generated run with the results dropped; the idealisation rewrote nothing. -/
import proofs.«121697_j44092134261105_2_alg».proof.Defs
import proofs.«121697_j44092134261105_2_alg».proof.Proof.Gen.Kernel
import proofs.«121697_j44092134261105_2_alg».proof.Proof.Gen.Kernel.Skeleton
import proofs.«121697_j44092134261105_2_alg».proof.Proof.Gen.Kernel.Launch
import proofs.«121697_j44092134261105_2_alg».proof.Proof.Gen.Kernel.Points
import proofs.«121697_j44092134261105_2_alg».proof.Proof.Gen.Kernel.Frame
import proofs.«121697_j44092134261105_2_alg».proof.Proof.Gen.KernelIdeal
import proofs.«121697_j44092134261105_2_alg».proof.Proof.Gen.KernelIdeal.Skeleton
import proofs.«121697_j44092134261105_2_alg».proof.Proof.Gen.KernelIdeal.Launch
import proofs.«121697_j44092134261105_2_alg».proof.Proof.Gen.KernelIdeal.Points
import proofs.«121697_j44092134261105_2_alg».proof.Proof.Gen.KernelIdeal.Frame
import proofs.«121697_j44092134261105_2_alg».proof.Proof.Gen.ReferenceIdeal
import proofs.«121697_j44092134261105_2_alg».proof.Proof.Gen.KernelIdeal.Value
import proofs.«121697_j44092134261105_2_alg».proof.Proof.Gen.ReferenceIdeal.Run
import proofs.«121697_j44092134261105_2_alg».proof.Proof.Gen.ReferenceIdeal.Read
import proofs.«121697_j44092134261105_2_alg».proof.Proof.Gen.Pre_finite_inputs
import proofs.«121697_j44092134261105_2_alg».proof.Proof.KernelArrays
import proofs.«121697_j44092134261105_2_alg».proof.Proof.ReferenceValue
import Idealize.ShloMosaic.Adequacy
import Idealize.ShloMosaic.Init

noncomputable section

namespace Cert.Proof

open Idealize.ShloMosaic Idealize.SL.Sem Cert.GraphSpec

/-- The kernel as printed runs and leaves its arguments alone: the generated frame. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference is a straight line of host operations: its generated run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealisation rewrote no operation. -/
theorem preserves : Cert.preserves_Kernel_KernelIdeal := trivial

/-- From arguments that agree, the kernel ends at the adjacency in its spelling and the convolution with it, the
    reference at the adjacency in its spelling and the convolution with that: one pair of arrays, because the two
    spellings of the adjacency are one array (`adjAfter_eq_adjLoop`). -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, _, h2, h3, h4, h5, _⟩ := hagree c
    rw [Cert.ReferenceIdeal.Read.val_main_v28_eq, Cert.ReferenceIdeal.RefValue.adj_eq, ← adjAfter_eq_adjLoop, h0, h2, h3, h4, h5]
  · obtain ⟨h0, _, h2, h3, h4, h5, h6, h7, h8, h9⟩ := hagree c
    rw [Cert.ReferenceIdeal.Read.val_main_v39_eq, Cert.ReferenceIdeal.RefValue.feats_eq, Cert.ReferenceIdeal.RefValue.adj_eq,
      ← adjAfter_eq_adjLoop, h0, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
